-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S4194304x3 : Shape := ⟨2, ![4194304, 3]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S4194304x3 : S_.BroadcastsInDim S4194304x3 (![] : Fin 0 → Fin S4194304x3.rank)
  reducesTo_S4194304x3_S_d0_1 : S4194304x3.ReducesTo [0, 1] S_

variable [Facts]

def fn {F : FTy → Type} [FloatOps F] (main_arg0 : FVec F S4194304x5 .f32) (main_arg1 : FVec F S4194304x3 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S4194304x3 .f32 := Host.absf main_arg1
  let main_cst_0 : FVec F S_ .f32 := constant S_ .f32 0x7F800000#32
  let main_v5 : FVec F S4194304x3 .f32 := broadcastInDim S4194304x3 ![] bcast_S_S4194304x3 main_cst_0
  let main_v6 : IVec S4194304x3 1 := cmpf .olt main_v4 main_v5
  let main_c_1 : IVec S_ 1 := constantI S_ 1 1#1
  let main_v7 : IVec S_ 1 := (fun x v => Host.reduce IntOp.andi x v reducesTo_S4194304x3_S_d0_1 h_S_) main_v6 main_c_1
  let main_v8 : IVec S_ 1 := andi main_v3 main_v7
  main_v8
-- ==== Kernel.lean ====
abbrev S4194304x5 : Shape := ⟨2, ![4194304, 5]⟩
abbrev S4194304x3 : Shape := ⟨2, ![4194304, 3]⟩
abbrev S16x128 : Shape := ⟨2, ![16, 128]⟩
abbrev S8192x5 : Shape := ⟨2, ![8192, 5]⟩
abbrev S8192x3 : Shape := ⟨2, ![8192, 3]⟩
abbrev S8x128 : Shape := ⟨2, ![8, 128]⟩
abbrev S8192x1 : Shape := ⟨2, ![8192, 1]⟩
abbrev S8192 : Shape := ⟨1, ![8192]⟩
abbrev S1 : Shape := ⟨1, ![1]⟩
abbrev S1x1 : Shape := ⟨2, ![1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4194304x5, .f32⟩
  | .hbm, ⟨1, _⟩ => ⟨S4194304x3, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8192x5, .f32⟩
  | .local _ .vmem, ⟨1, _⟩ => ⟨S8192x5, .f32⟩
  | .local _ .vmem, ⟨2, _⟩ => ⟨S8192x3, .f32⟩
  | .local _ .vmem, ⟨3, _⟩ => ⟨S8192x3, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v61 : BitVec 1 := Scalar.cmpi .eq arg1 c255_i32
  let v62 : BitVec 32 := Scalar.extui v61
  let c0_i32_19 : BitVec 32 := 0#32
  let v63 : BitVec 1 := Scalar.cmpi .ne v62 c0_i32_19
  v63

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x5_S8192x5_0_0 : ∀ a, (![0, 0] : Fin 2 → Nat) a + S8192x5.size a ≤ S8192x5.size a
  h_S8192x5 : 0 < S8192x5.numel
  inb_S8192x3_S8192x3_0_0 : ∀ a, (![0, 0] : Fin 2 → Nat) a + S8192x3.size a ≤ S8192x3.size a
  h_S8192x3 : 0 < S8192x3.numel
  slices_S8192x5_o0_0_S8192x3 : S8192x5.Slices ![0, 0] S8192x3
  slices_S8192x5_o0_2_S8192x1 : S8192x5.Slices ![0, 2] S8192x1
  shapeCasts_S8192x1_S8192 : S8192x1.ShapeCasts S8192
  slices_S8192x5_o0_3_S8192x1 : S8192x5.Slices ![0, 3] S8192x1
  slices_S8192x5_o0_4_S8192x1 : S8192x5.Slices ![0, 4] S8192x1
  slices_S8192x3_o0_2_S8192x1 : S8192x3.Slices ![0, 2] S8192x1
  reduces_S8192x3_S8192 : S8192x3.Reduces [1] S8192
  shapeCasts_S8192_S8192x1 : S8192.ShapeCasts S8192x1
  reduces_S8192x1_S1 : S8192x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S4194304x5.size a
  hwx0_0 : ∀ i : grid0.Coords, EltTy.bits .f32 = 32 ∨ (Rect.block (s := S4194304x5) S8192x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S4194304x3.size a
  hwx0_1 : ∀ i : grid0.Coords, EltTy.bits .f32 = 32 ∨ (Rect.block (s := S4194304x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x5 : Shape := ⟨2, ![4194304, 5]⟩
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S4194304x3, .f32⟩
  | .hbm, ⟨2, _⟩ => ⟨S4194304x3, .f32⟩
  | .hbm, ⟨3, _⟩ => ⟨S4194304x3, .f32⟩
  | .hbm, ⟨4, _⟩ => ⟨S4194304x3, .f32⟩
  | .hbm, ⟨5, _⟩ => ⟨S4194304x1, .f32⟩
  | .hbm, ⟨6, _⟩ => ⟨S4194304, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S4194304, .i1⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S_, .f32⟩
  | .hbm, ⟨19, _⟩ => ⟨S4194304, .f32⟩
  | .hbm, ⟨20, _⟩ => ⟨S4194304, .f32⟩
  | .hbm, ⟨21, _⟩ => ⟨S4194304, .i1⟩
  | .hbm, ⟨22, _⟩ => ⟨S_, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S_, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .i1⟩
  | .hbm, ⟨33, _⟩ => ⟨S4194304, .f32⟩
  | .hbm, ⟨34, _⟩ => ⟨S_, .f32⟩
  | .hbm, ⟨35, _⟩ => ⟨S4194304, .f32⟩
  | .hbm, ⟨36, _⟩ => ⟨S4194304, .f32⟩
  | .hbm, ⟨37, _⟩ => ⟨S_, .f32⟩
  | .hbm, ⟨38, _⟩ => ⟨S4194304, .f32⟩
  | .hbm, ⟨39, _⟩ => ⟨S4194304, .f32⟩
  | .hbm, ⟨40, _⟩ => ⟨S4194304, .i1⟩
  | .hbm, ⟨41, _⟩ => ⟨S_, .f32⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S_, .f32⟩
  | .hbm, ⟨48, _⟩ => ⟨S4194304, .f32⟩
  | .hbm, ⟨49, _⟩ => ⟨S4194304, .f32⟩
  | .hbm, ⟨50, _⟩ => ⟨S4194304, .f32⟩
  | .hbm, ⟨51, _⟩ => ⟨S4194304x1, .f32⟩
  | .hbm, ⟨52, _⟩ => ⟨S4194304x1, .f32⟩
  | .hbm, ⟨53, _⟩ => ⟨S4194304x5, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_call2_v0 : Ref sig .tc := ⟨.hbm, 47, rfl⟩
abbrev main_call2_v1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  slices_S4194304x5_S4194304x3_0_0 : S4194304x5.Slices ![0, 0] S4194304x3
  slices_S4194304x5_S4194304x1_0_2 : S4194304x5.Slices ![0, 2] S4194304x1
  shapeCasts_S4194304x1_S4194304 : S4194304x1.ShapeCasts S4194304
  slices_S4194304x5_S4194304x1_0_3 : S4194304x5.Slices ![0, 3] S4194304x1
  slices_S4194304x5_S4194304x1_0_4 : S4194304x5.Slices ![0, 4] S4194304x1
  slices_S4194304x3_S4194304x1_0_2 : S4194304x3.Slices ![0, 2] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x3_S4194304x1_S4194304x1_S4194304x5_d1 : Shape.Concatenates [S4194304x3, S4194304x1, S4194304x1] S4194304x5 1
  reducesTo_S4194304x5_S_d0_1 : S4194304x5.ReducesTo [0, 1] S_
  h_S_ : 0 < S_.numel

variable [Facts₀]

class Facts : Prop extends Facts₀ where

variable [Facts]
-- ==== Proof.Spec.lean ====
/-
  The quantile loss of one row, and its total over all rows, on the extended reals.

  A row of predictions `P : Fin 5 → EReal` and a row of targets `Q : Fin 3 → EReal` give five numbers:
  the three squared differences `(P c - Q c)²` for `c < 3`, a lower-range term and an upper-range term, each a
  two-level choice on comparisons of `P 3`, `P 4` with `P 2` and with `Q 2` scaled by a fixed factor. The
  row's loss is their sum, and the total is the sum of the rows' losses. The three fixed factors and the zero
  are kept as the float words both programs spell; the same word is the same extended real on both sides, so
  none of them is ever evaluated.
-/
import Idealize.ShloMosaic.PureOps.Ideal
import Idealize.ShloMosaic.Lib.ValueIdx

noncomputable section

namespace Cert.Quantile

open Idealize.ShloMosaic Idealize.ShloMosaic.ValueIdx

/-- The factor 4 of the linear branch. -/
abbrev four : EReal := Ideal.ofBits .f32 0x40800000#32
/-- The factor below one (the float nearest 0.95) of the lower range. -/
abbrev below : EReal := Ideal.ofBits .f32 0x3F733333#32
/-- The factor above one (the float nearest 1.05) of the upper range. -/
abbrev above : EReal := Ideal.ofBits .f32 0x3F866666#32
/-- The zero both inner choices return inside the range. -/
abbrev zero : EReal := Ideal.ofBits .f32 0x00000000#32

/-- The squared difference of column `c < 3`. -/
def sq (P : Fin 5 → EReal) (Q : Fin 3 → EReal) (c : Fin 3) : EReal :=
  (P (Fin.castLE (by decide) c) - Q c) * (P (Fin.castLE (by decide) c) - Q c)

/-- The lower-range term: linear in `P 4 - Q 2` when `P 3 > P 2`; otherwise zero when `P 3` is above the
    scaled target, and the squared distance to it when not. -/
def lower (P : Fin 5 → EReal) (Q : Fin 3 → EReal) : EReal :=
  Scalar.select (Ideal.cmp .ogt (P 3) (P 2)) ((P 4 - Q 2) * four)
    (Scalar.select (Ideal.cmp .ogt (P 3) (Q 2 * below)) zero ((P 3 - Q 2 * below) * (P 3 - Q 2 * below)))

/-- The upper-range term: linear in `P 4 - Q 2` when `P 4 < P 2`; otherwise zero when `P 4` is below the
    scaled target, and the squared distance to it when not. -/
def upper (P : Fin 5 → EReal) (Q : Fin 3 → EReal) : EReal :=
  Scalar.select (Ideal.cmp .olt (P 4) (P 2)) ((P 4 - Q 2) * four)
    (Scalar.select (Ideal.cmp .olt (P 4) (Q 2 * above)) zero ((P 4 - Q 2 * above) * (P 4 - Q 2 * above)))

/-- A row's loss: the three squares, then the lower and the upper term. -/
def rowLoss (P : Fin 5 → EReal) (Q : Fin 3 → EReal) : EReal :=
  sq P Q 0 + sq P Q 1 + sq P Q 2 + lower P Q + upper P Q

/-- Row `i` of an `[n, 5]` array of predictions and of an `[n, 3]` array of targets. -/
abbrev rowOf {n k : Nat} (x : (⟨2, ![n, k]⟩ : Shape).Idx → EReal) (i : Fin n) : Fin k → EReal := fun c => x (ix2 i c)

/-- The loss of row `i` of the two arrays. -/
def lossAt {n : Nat} (p : (⟨2, ![n, 5]⟩ : Shape).Idx → EReal) (q : (⟨2, ![n, 3]⟩ : Shape).Idx → EReal) (i : Fin n) : EReal :=
  rowLoss (rowOf p i) (rowOf q i)

/-- The total loss: the sum over all rows. -/
def total {n : Nat} (p : (⟨2, ![n, 5]⟩ : Shape).Idx → EReal) (q : (⟨2, ![n, 3]⟩ : Shape).Idx → EReal) : EReal :=
  ∑ i : Fin n, lossAt p q i

/-- The mean both programs return: the total from zero, divided by the element count `5 n` spelt as the float
    word both programs print. -/
def mean {n : Nat} (p : (⟨2, ![n, 5]⟩ : Shape).Idx → EReal) (q : (⟨2, ![n, 3]⟩ : Shape).Idx → EReal) : EReal :=
  Ideal.div (zero + total p q) (Ideal.ofBits .f32 0x4BA00000#32)

end Cert.Quantile

end
-- ==== Proof.RefSide.lean ====
/-
  The reference returns the mean loss.

  Its last three operations are a sum of every element of the `[n, 5]` array of per-row terms from zero, and a
  division by the element count. The array is a concatenation along the columns: columns 0..2 are the squared
  differences, column 3 the lower-range term, column 4 the upper-range term, so the five entries of row `r` are
  the five summands of that row's loss, in the order the row's loss adds them. Summing the array row by row
  gives the total.
-/
import proofs.«179763_j73512660239006_2_alg».proof.Proof.Gen.ReferenceIdeal.Read
import proofs.«179763_j73512660239006_2_alg».proof.Proof.Spec
import Idealize.ShloMosaic.Lib.ValueIdx
import Idealize.ShloMosaic.Lib.Pipeline.Value

noncomputable section

namespace Cert.ReferenceIdeal.Mean

open Cert.ReferenceIdeal Cert.ReferenceIdeal.Gen Cert.ReferenceIdeal.Read
open Idealize.ShloMosaic Idealize.ShloMosaic.ValueIdx Cert.Quantile

variable (x0 : (⟨S4194304x5, .f32⟩ : BufTy).Contents (Elt Ideal)) (x1 : (⟨S4194304x3, .f32⟩ : BufTy).Contents (Elt Ideal))

/-! ### Where the composed index maps of the slices and reshapes land -/

theorem at_sq (r : Fin 4194304) (c : Fin 3) : idx_main_v0 (ix2 r c) = ix2 r (Fin.castLE (by decide) c) :=
  funext fun a => match a with | ⟨0, _⟩ => rfl | ⟨1, _⟩ => rfl
theorem at_p2 (r : Fin 4194304) : idx_main_v3 (idx_main_v4 (ix1 r)) = ix2 r (2 : Fin 5) :=
  funext fun a => match a with | ⟨0, _⟩ => Fin.ext (Nat.div_one _) | ⟨1, _⟩ => rfl
theorem at_p3 (r : Fin 4194304) : idx_main_v5 (idx_main_v6 (ix1 r)) = ix2 r (3 : Fin 5) :=
  funext fun a => match a with | ⟨0, _⟩ => Fin.ext (Nat.div_one _) | ⟨1, _⟩ => rfl
theorem at_p4 (r : Fin 4194304) : idx_main_v7 (idx_main_v8 (ix1 r)) = ix2 r (4 : Fin 5) :=
  funext fun a => match a with | ⟨0, _⟩ => Fin.ext (Nat.div_one _) | ⟨1, _⟩ => rfl
theorem at_t2 (r : Fin 4194304) : idx_main_v9 (idx_main_v10 (ix1 r)) = ix2 r (2 : Fin 3) :=
  funext fun a => match a with | ⟨0, _⟩ => Fin.ext (Nat.div_one _) | ⟨1, _⟩ => rfl
theorem at_lower (r : Fin 4194304) : idx_main_v37 (ix2 r (0 : Fin 1)) = ix1 r :=
  funext fun a => match a with | ⟨0, _⟩ => rfl
theorem at_upper (r : Fin 4194304) : idx_main_v38 (ix2 r (0 : Fin 1)) = ix1 r :=
  funext fun a => match a with | ⟨0, _⟩ => rfl

/-! ### The five entries of a row of the concatenated array -/

/-- The three pieces joined along the columns. -/
abbrev parts : List ((s : Shape) × (s.Idx → EReal)) :=
  [⟨S4194304x3, val_main_v2 (F := Ideal) x0 x1⟩, ⟨S4194304x1, val_main_v37 (F := Ideal) x0 x1⟩,
    ⟨S4194304x1, val_main_v38 (F := Ideal) x0 x1⟩]

/-- Columns 0..2: the squared differences. -/
theorem col_sq (r : Fin 4194304) (c : Fin 3) :
    val_main_v39 (F := Ideal) x0 x1 (ix2 r (Fin.castLE (by decide) c : Fin 5)) = sq (rowOf x0 r) (rowOf x1 r) c := by
  unfold val_main_v39
  refine (concatenate_apply_piece (t := S4194304x5) (1 : Fin 2) (parts x0 x1) concatenates_S4194304x3_S4194304x1_S4194304x1_S4194304x5_d1
    (ix2 r (Fin.castLE (by decide) c : Fin 5)) 0 (show (0 : ℕ) < 3 by decide)
    S4194304x3 (val_main_v2 (F := Ideal) x0 x1) rfl rfl 0 rfl (ix2 r c)
    (fun b hb => match b, hb with | ⟨0, _⟩, _ => rfl | ⟨1, _⟩, hb => absurd rfl hb) (Nat.zero_add _)).trans ?_
  rw [val_main_v2_apply, val_main_v1_apply, val_main_v0_apply, at_sq]
  rfl

/-- Column 3: the lower-range term. -/
theorem col_lower (r : Fin 4194304) :
    val_main_v39 (F := Ideal) x0 x1 (ix2 r (3 : Fin 5)) = lower (rowOf x0 r) (rowOf x1 r) := by
  unfold val_main_v39
  refine (concatenate_apply_piece (t := S4194304x5) (1 : Fin 2) (parts x0 x1) concatenates_S4194304x3_S4194304x1_S4194304x1_S4194304x5_d1
    (ix2 r (3 : Fin 5)) 1 (show (1 : ℕ) < 3 by decide)
    S4194304x1 (val_main_v37 (F := Ideal) x0 x1) rfl rfl 3 rfl (ix2 r (0 : Fin 1))
    (fun b hb => match b, hb with | ⟨0, _⟩, _ => rfl | ⟨1, _⟩, hb => absurd rfl hb) rfl).trans ?_
  rw [val_main_v37_apply, at_lower, val_main_v23_apply, val_main_v11_apply, val_main_v14_apply, val_main_v22_apply,
    val_main_v17_apply, val_main_v21_apply, val_main_v20_apply, val_main_v19_apply, val_main_v16_apply, val_main_v12_apply,
    val_main_v13_apply, val_main_v15_apply, val_main_v18_apply, val_main_call0_v1_apply,
    val_main_v4_apply, val_main_v6_apply, val_main_v8_apply, val_main_v10_apply,
    val_main_v3_apply, val_main_v5_apply, val_main_v7_apply, val_main_v9_apply, at_p2, at_p3, at_p4, at_t2]
  rfl

/-- Column 4: the upper-range term. -/
theorem col_upper (r : Fin 4194304) :
    val_main_v39 (F := Ideal) x0 x1 (ix2 r (4 : Fin 5)) = upper (rowOf x0 r) (rowOf x1 r) := by
  unfold val_main_v39
  refine (concatenate_apply_piece (t := S4194304x5) (1 : Fin 2) (parts x0 x1) concatenates_S4194304x3_S4194304x1_S4194304x1_S4194304x5_d1
    (ix2 r (4 : Fin 5)) 2 (show (2 : ℕ) < 3 by decide)
    S4194304x1 (val_main_v38 (F := Ideal) x0 x1) rfl rfl 4 rfl (ix2 r (0 : Fin 1))
    (fun b hb => match b, hb with | ⟨0, _⟩, _ => rfl | ⟨1, _⟩, hb => absurd rfl hb) rfl).trans ?_
  rw [val_main_v38_apply, at_upper, val_main_v36_apply, val_main_v24_apply, val_main_v27_apply, val_main_v35_apply,
    val_main_v30_apply, val_main_v34_apply, val_main_v33_apply, val_main_v32_apply, val_main_v29_apply, val_main_v25_apply,
    val_main_v26_apply, val_main_v28_apply, val_main_v31_apply, val_main_call2_v1_apply,
    val_main_v4_apply, val_main_v8_apply, val_main_v10_apply,
    val_main_v3_apply, val_main_v7_apply, val_main_v9_apply, at_p2, at_p4, at_t2]
  rfl

/-- A row of the concatenated array sums to the row's loss. -/
theorem row_sum (r : Fin 4194304) :
    ∑ c : Fin 5, val_main_v39 (F := Ideal) x0 x1 (ix2 r c) = lossAt x0 x1 r := by
  rw [Fin.sum_univ_five]
  have h0 := col_sq x0 x1 r 0
  have h1 := col_sq x0 x1 r 1
  have h2 := col_sq x0 x1 r 2
  rw [show (Fin.castLE (by decide) (0 : Fin 3) : Fin 5) = 0 from rfl] at h0
  rw [show (Fin.castLE (by decide) (1 : Fin 3) : Fin 5) = 1 from rfl] at h1
  rw [show (Fin.castLE (by decide) (2 : Fin 3) : Fin 5) = 2 from rfl] at h2
  rw [h0, h1, h2, col_lower, col_upper]
  rfl

/-- The reference's result is the mean loss of its two arguments. -/
theorem result_eq (i : S_.Idx) : val_main_v41 (F := Ideal) x0 x1 i = mean x0 x1 := by
  have hs : ∑ j : S4194304x5.Idx, val_main_v39 (F := Ideal) x0 x1 j = total x0 x1 :=
    (sum_idx2 (n0 := 4194304) (n1 := 5) (val_main_v39 (F := Ideal) x0 x1)).trans
      (Finset.sum_congr rfl fun r _ => row_sum x0 x1 r)
  rw [val_main_v41_apply, val_main_v40_apply, hs]
  rfl

end Cert.ReferenceIdeal.Mean

end
-- ==== Proof.LibWriteOverlay.lean ====
/-
  One unmasked write into a buffer, read back: the buffer's earlier contents with the written rectangle's part
  replaced by the payload. And, for a rectangle that starts at the origin with unit strides, the replaced
  contents at an index inside the rectangle are the payload at the same coordinates. Both hold for any view of
  the shape, any element type and any earlier contents; nothing is assumed about covering.
-/
import Idealize.ShloMosaic.Lib.Writes
import Idealize.ShloMosaic.Lib.Memref

namespace Cert.WriteOverlay

open Idealize.ShloMosaic

variable {sig : RefSig} {κ : Kind} {sp : Space} {s : Shape} {e : EltTy} {Val : EltTy → Type}

/-- A single write through rectangle `r` over contents that read `X` reads `X` overlaid on `r` by the payload:
    under `r` the payload (the last write wins), off `r` what was there. -/
theorem read_write_eq_overlay (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y _ (fun p hp => by rw [List.mem_singleton.mp hp]; exact hy),
      Rect.overlay_of_not_mem _ _ _ hy]

/-- An overlay through a unit-stride rectangle at the origin, at an index whose coordinates are those of the
    rectangle's index `x`, is the payload at `x`. -/
theorem overlay_origin_apply {α : Type} {off size : Fin s.rank → Nat} (hz : off = fun _ => 0)
    (inb : ∀ a, off a + size a ≤ s.size a) (X : s.Idx → α) (G : (Rect.unit off size inb).shape.Idx → α)
    (y : s.Idx) (x : (Rect.unit off size inb).shape.Idx) (hx : ∀ a, (y a).val = (x a).val) :
    (Rect.unit off size inb).overlay X G y = G x := by
  subst hz
  have hy : y = (Rect.unit (fun _ => 0) size inb).emb x := funext fun a => Fin.ext (by
    rw [Rect.emb_apply]; show (y a).val = 0 + 1 * (x a).val; rw [hx a]; omega)
  rw [hy, Rect.overlay_emb]

end Cert.WriteOverlay
-- ==== Proof.Pieces.lean ====
/-
  What one grid point does to the accumulator, for any float type.

  The accumulator is an `[8, 128]` buffer of which only the corner element `(0, 0)` is ever updated: a point
  replaces the corner by the old corner plus the point's block sum (`cornerSum`, a function of the point's two
  input blocks and of the one-element load of the old corner) and leaves every other element alone. That is one
  function `step` of the input blocks and the old contents — the old contents overlaid, on the one-element
  rectangle at the origin, by the new corner. The first point of a shard first fills the accumulator with the zero
  block, so there `step` starts from the zero block; the last point of a shard copies the updated accumulator
  into the output block.
-/
import proofs.«179763_j73512660239006_2_alg».proof.Proof.Gen.KernelIdeal.Frame
import proofs.«179763_j73512660239006_2_alg».proof.Proof.LibWriteOverlay
import Idealize.ShloMosaic.Lib.Pipeline.Value
import Idealize.ShloMosaic.Lib.Tactic

noncomputable section

namespace Cert.KernelIdeal.Step

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The one-element rectangle at the accumulator's origin. -/
abbrev cornerRect : Rect S8x128 := Rect.unit (s := S8x128) ![0, 0] S1x1.size inb_S8x128_S1x1_0_0

/-- The new corner: the old corner plus the block sum of the two input blocks. -/
def cornerSum (x0 : Vec F S8192x5 .f32) (x1 : Vec F S8192x3 .f32) (old : Vec F S1x1 .f32) : Vec F S1x1 .f32 :=
  k0_pay1 (k0_pay3 x0 x1) (k0_pay7 x0 x1) (k0_pay8 x0) (k0_pay9 x0 x1) (k0_pay10 x0 x1) old

/-- One point's update of the accumulator. -/
def step (x0 : Vec F S8192x5 .f32) (x1 : Vec F S8192x3 .f32) (old : Vec F S8x128 .f32) : Vec F S8x128 .f32 :=
  cornerRect.overlay old (cornerSum x0 x1 (View.ld old cornerRect))

/-- The zero block the first point of a shard fills the accumulator with. -/
abbrev zeroBlock : Vec F S8x128 .f32 := k0_pay2 (F := F)

/-- A middle point of a shard leaves the accumulator one step on. -/
theorem scratch_B (c : Dev nD) (i : grid0.Coords) (arg2 : Memref sig .tc .vmem S8192x5 .f32) (harg2 : arg2.IsWhole) (arg3 : Memref sig .tc .vmem S8192x3 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : ¬cond0_1 i)
    (x0 : Vec F S8192x5 .f32) (x1 : Vec F S8192x3 .f32) (xs0 : Vec F S8x128 .f32) :
    sout0_B_0 c i arg2 harg2 arg3 harg3 arg4 harg4 arg5 harg5 hc0 hc1 x0 x1 xs0 = step x0 x1 xs0 := by
  unfold sout0_B_0 kernelRun0_B
  dsimp only
  sl_unfold_words
  rw [Cert.WriteOverlay.read_write_eq_overlay]
  simp only [View.readAt_eq_ld, harg2.read_unread, harg3.read_unread, harg5.read_unread,
    View.ld_unit_zero (S := S8192x5) hz, View.ld_unit_zero (S := S8192x3) hz]
  rfl

/-- The last point of a shard leaves the accumulator one step on, -/
theorem scratch_C (c : Dev nD) (i : grid0.Coords) (arg2 : Memref sig .tc .vmem S8192x5 .f32) (harg2 : arg2.IsWhole) (arg3 : Memref sig .tc .vmem S8192x3 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8192x5 .f32) (x1 : Vec F S8192x3 .f32) (xs0 : Vec F S8x128 .f32) :
    sout0_C_0 c i arg2 harg2 arg3 harg3 arg4 harg4 arg5 harg5 hc0 hc1 x0 x1 xs0 = step x0 x1 xs0 := by
  unfold sout0_C_0 kernelRun0_C
  dsimp only
  sl_unfold_words
  rw [Cert.WriteOverlay.read_write_eq_overlay]
  simp only [View.readAt_eq_ld, harg2.read_unread, harg3.read_unread, harg5.read_unread,
    View.ld_unit_zero (S := S8192x5) hz, View.ld_unit_zero (S := S8192x3) hz]
  rfl

/-- and stores that updated accumulator, whole, into the output block. -/
theorem out_C (c : Dev nD) (i : grid0.Coords) (arg2 : Memref sig .tc .vmem S8192x5 .f32) (harg2 : arg2.IsWhole) (arg3 : Memref sig .tc .vmem S8192x3 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8192x5 .f32) (x1 : Vec F S8192x3 .f32) (xs0 : Vec F S8x128 .f32) :
    out0_C_2 c i arg2 harg2 arg3 harg3 arg4 harg4 arg5 harg5 hc0 hc1 x0 x1 xs0 = step x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld]
  rw [View.ld_unit_zero (S := S8x128) hz, Cert.WriteOverlay.read_write_eq_overlay]
  simp only [harg2.read_unread, harg3.read_unread, harg5.read_unread,
    View.ld_unit_zero (S := S8192x5) hz, View.ld_unit_zero (S := S8192x3) hz]
  rfl

/-- The first point of a shard fills the accumulator with the zero block and then takes one step from it. -/
theorem scratch_A (c : Dev nD) (i : grid0.Coords) (arg2 : Memref sig .tc .vmem S8192x5 .f32) (harg2 : arg2.IsWhole) (arg3 : Memref sig .tc .vmem S8192x3 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8192x5 .f32) (x1 : Vec F S8192x3 .f32) :
    sout0_A_0 c i arg2 harg2 arg3 harg3 arg4 harg4 arg5 harg5 hc0 hc1 x0 x1 = step x0 x1 zeroBlock := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons, View.canon_unit_zero hz,
    View.readCov_eq_canon_ld _ _ _ (fun y => ⟨_, List.mem_singleton_self _, View.mem_set_unit_zero hz inb_S8x128_S8x128_0_0 y⟩),
    View.canon_unit_zero hz]
  simp only [View.readAt_eq_ld, harg2.read_unread, harg3.read_unread,
    View.ld_unit_zero (S := S8192x5) hz, View.ld_unit_zero (S := S8192x3) hz]
  rfl

end Cert.KernelIdeal.Step

end
-- ==== Proof.BlockSum.lean ====
/-
  The block sum on the extended reals: the new corner is the old corner plus the sum of the block's row losses.

  The body squares the three column differences and sums them along the columns (a sum over `c < 3` per row),
  then down the rows; it computes the lower- and the upper-range term of every row and sums each down the rows;
  and it adds the three totals to the old corner. Over the extended reals addition is commutative and
  associative (infinities included), so the three totals regroup into one sum over the rows of
  `sq 0 + sq 1 + sq 2 + lower + upper` — the row's loss.
-/
import proofs.«179763_j73512660239006_2_alg».proof.Proof.Pieces
import proofs.«179763_j73512660239006_2_alg».proof.Proof.Spec
import Idealize.ShloMosaic.Lib.ValueIdx
import Idealize.ShloMosaic.Lib.Pipeline.Value
import Idealize.ShloMosaic.PureOps.Ideal.Laws

noncomputable section

namespace Cert.KernelIdeal.BlockSum

open Cert.KernelIdeal Cert.KernelIdeal.Gen Cert.KernelIdeal.Step Cert.Quantile
open Idealize.ShloMosaic Idealize.ShloMosaic.ValueIdx

/-! ### Reading the layout operations at an index -/

/-- Column `o` of a `[8192, 5]` block, as the length-8192 vector the body makes of it, at row `r`. -/
theorem col5 (x : Vec Ideal S8192x5 .f32) (o : Nat) (ho : o < 5) (hs : S8192x5.Slices ![0, o] S8192x1) (r : Fin 8192) :
    shapeCast S8192 (extractStridedSlice S8192x1 ![0, o] x hs) shapeCasts_S8192x1_S8192 (ix1 r)
      = x (ix2 r (⟨o, ho⟩ : Fin 5)) := by
  refine (shapeCast_apply _ shapeCasts_S8192x1_S8192 (ix1 r) (ix2 r (0 : Fin 1)) ?_).trans ?_
  · rw [Shape.rowMajor_val_two, Shape.rowMajor_val_one]; show r.val * 1 + 0 = r.val; omega
  · exact extractStridedSlice_apply ![0, o] x hs (ix2 r (0 : Fin 1)) (ix2 r ⟨o, ho⟩) fun a =>
      match a with
      | ⟨0, _⟩ => by show r.val = 0 + r.val; omega
      | ⟨1, _⟩ => by show o = o + 0; omega

/-- Column `o` of a `[8192, 3]` block likewise. -/
theorem col3 (x : Vec Ideal S8192x3 .f32) (o : Nat) (ho : o < 3) (hs : S8192x3.Slices ![0, o] S8192x1) (r : Fin 8192) :
    shapeCast S8192 (extractStridedSlice S8192x1 ![0, o] x hs) shapeCasts_S8192x1_S8192 (ix1 r)
      = x (ix2 r (⟨o, ho⟩ : Fin 3)) := by
  refine (shapeCast_apply _ shapeCasts_S8192x1_S8192 (ix1 r) (ix2 r (0 : Fin 1)) ?_).trans ?_
  · rw [Shape.rowMajor_val_two, Shape.rowMajor_val_one]; show r.val * 1 + 0 = r.val; omega
  · exact extractStridedSlice_apply ![0, o] x hs (ix2 r (0 : Fin 1)) (ix2 r ⟨o, ho⟩) fun a =>
      match a with
      | ⟨0, _⟩ => by show r.val = 0 + r.val; omega
      | ⟨1, _⟩ => by show o = o + 0; omega

/-- The first three columns of a `[8192, 5]` block at `(r, c)`. -/
theorem left3 (x : Vec Ideal S8192x5 .f32) (r : Fin 8192) (c : Fin 3) :
    extractStridedSlice S8192x3 ![0, 0] x slices_S8192x5_o0_0_S8192x3 (ix2 r c) = x (ix2 r (Fin.castLE (by decide) c)) :=
  extractStridedSlice_apply ![0, 0] x slices_S8192x5_o0_0_S8192x3 (ix2 r c) (ix2 r (Fin.castLE (by decide) c)) fun a =>
    match a with
    | ⟨0, _⟩ => by show r.val = 0 + r.val; omega
    | ⟨1, _⟩ => by show c.val = 0 + c.val; omega

/-- A length-8192 vector, made a column, summed down the rows into one element, made `[1, 1]`: the sum of its
    entries. -/
theorem colTotal (v : FVec Ideal S8192 .f32) (hφ : FKind.Formats .f32)
    (hacc : (0x00000000#32 : BitVec 32) = FKind.add.neutral .f32 hφ) (z : S1x1.Idx) :
    shapeCast S1x1 (multiReduction .add [0] S1 (shapeCast S8192x1 v shapeCasts_S8192_S8192x1) 0x00000000#32
      reduces_S8192x1_S1 hφ hacc) shapeCasts_S1_S1x1 z = ∑ r : Fin 8192, v (ix1 r) := by
  refine (shapeCast_apply _ shapeCasts_S1_S1x1 z (ix1 (0 : Fin 1)) ?_).trans ?_
  · rw [Shape.rowMajor_val_two, Shape.rowMajor_val_one]
    have h0 : (z 0).val < 1 := (z 0).isLt
    have h1 : (z 1).val < 1 := (z 1).isLt
    show 0 = (z 0).val * 1 + (z 1).val; omega
  refine (Ideal.multiReduction_add_total (shapeCast S8192x1 v shapeCasts_S8192_S8192x1) 0x00000000#32
    reduces_S8192x1_S1 (fun b => match b with | ⟨0, _⟩ => rfl) hφ hacc (ix1 (0 : Fin 1))).trans ?_
  refine (sum_idx2 (n0 := 8192) (n1 := 1) (shapeCast S8192x1 v shapeCasts_S8192_S8192x1)).trans ?_
  refine Finset.sum_congr rfl fun r _ => ?_
  rw [Fin.sum_univ_one]
  refine shapeCast_apply v shapeCasts_S8192_S8192x1 (ix2 r (0 : Fin 1)) (ix1 r) ?_
  rw [Shape.rowMajor_val_two, Shape.rowMajor_val_one]; show r.val = r.val * 1 + 0; omega

/-- A `[8192, 3]` array summed along the columns, at row `r`: the sum of the row's three entries. -/
theorem rowTotal (w : FVec Ideal S8192x3 .f32) (hφ : FKind.Formats .f32)
    (hacc : (0x00000000#32 : BitVec 32) = FKind.add.neutral .f32 hφ) (r : Fin 8192) :
    multiReduction .add [1] S8192 w 0x00000000#32 reduces_S8192x3_S8192 hφ hacc (ix1 r) = ∑ c : Fin 3, w (ix2 r c) := by
  refine (Ideal.multiReduction_add_single w 0x00000000#32 reduces_S8192x3_S8192 hφ hacc (ix1 r)).trans ?_
  refine Finset.sum_congr rfl fun c _ => congrArg w (funext fun a => ?_)
  match a with
  | ⟨0, _⟩ => exact Fin.ext rfl
  | ⟨1, _⟩ => exact Fin.ext rfl

/-! ### The body's per-row values -/

variable (x0 : Vec Ideal S8192x5 .f32) (x1 : Vec Ideal S8192x3 .f32)

/-- The squared differences. -/
theorem pay_sq (r : Fin 8192) (c : Fin 3) : k0_pay3 x0 x1 (ix2 r c) = sq (rowOf x0 r) (rowOf x1 r) c := by
  unfold k0_pay3
  show (extractStridedSlice S8192x3 ![0, 0] x0 slices_S8192x5_o0_0_S8192x3 (ix2 r c) - x1 (ix2 r c))
      * (extractStridedSlice S8192x3 ![0, 0] x0 slices_S8192x5_o0_0_S8192x3 (ix2 r c) - x1 (ix2 r c)) = _
  rw [left3]
  rfl

theorem pay_p2 (r : Fin 8192) : k0_pay4 x0 (ix1 r) = x0 (ix2 r (2 : Fin 5)) := col5 x0 2 (by decide) _ r
theorem pay_p3 (r : Fin 8192) :
    shapeCast S8192 (extractStridedSlice S8192x1 ![0, 3] x0 slices_S8192x5_o0_3_S8192x1) shapeCasts_S8192x1_S8192 (ix1 r)
      = x0 (ix2 r (3 : Fin 5)) := col5 x0 3 (by decide) _ r
theorem pay_p4 (r : Fin 8192) : k0_pay5 x0 (ix1 r) = x0 (ix2 r (4 : Fin 5)) := col5 x0 4 (by decide) _ r
theorem pay_t2 (r : Fin 8192) : k0_pay6 x1 (ix1 r) = x1 (ix2 r (2 : Fin 3)) := col3 x1 2 (by decide) _ r

/-- The lower-range term as a function of the four numbers it reads. -/
def lowerOf (p2 p3 p4 t2 : EReal) : EReal :=
  Scalar.select (Ideal.cmp .ogt p3 p2) ((p4 - t2) * four)
    (Scalar.select (Ideal.cmp .ogt p3 (t2 * below)) zero ((p3 - t2 * below) * (p3 - t2 * below)))

/-- The upper-range term as a function of the three numbers it reads. -/
def upperOf (p2 p4 t2 : EReal) : EReal :=
  Scalar.select (Ideal.cmp .olt p4 p2) ((p4 - t2) * four)
    (Scalar.select (Ideal.cmp .olt p4 (t2 * above)) zero ((p4 - t2 * above) * (p4 - t2 * above)))

/-- The lower-range term. -/
theorem pay_lower (r : Fin 8192) : k0_pay7 x0 x1 (ix1 r) = lower (rowOf x0 r) (rowOf x1 r) := by
  show lowerOf (k0_pay4 x0 (ix1 r))
      (shapeCast S8192 (extractStridedSlice S8192x1 ![0, 3] x0 slices_S8192x5_o0_3_S8192x1) shapeCasts_S8192x1_S8192 (ix1 r))
      (k0_pay5 x0 (ix1 r)) (k0_pay6 x1 (ix1 r)) = _
  rw [pay_p2, pay_p3, pay_p4, pay_t2]
  rfl

/-- The upper-range term, as the body selects it from its three parts. -/
theorem pay_upper (r : Fin 8192) :
    select (k0_pay8 x0) (k0_pay9 x0 x1) (k0_pay10 x0 x1) (ix1 r) = upper (rowOf x0 r) (rowOf x1 r) := by
  show upperOf (k0_pay4 x0 (ix1 r)) (k0_pay5 x0 (ix1 r)) (k0_pay6 x1 (ix1 r)) = _
  rw [pay_p2, pay_p4, pay_t2]
  rfl

/-! ### The new corner -/

/-- The new corner is the old corner plus the sum of the block's row losses. -/
theorem cornerSum_eq (old : Vec Ideal S1x1 .f32) (z : S1x1.Idx) :
    cornerSum x0 x1 old z = old z + ∑ r : Fin 8192, lossAt x0 x1 r := by
  unfold cornerSum k0_pay1
  refine (congrFun (shapeCast_self _ _) z).trans ?_
  simp only [addf_apply]
  refine congrArg (old z + ·) ?_
  refine (congrArg₂ (· + ·) (congrArg₂ (· + ·) (colTotal _ _ _ z) (colTotal _ _ _ z)) (colTotal _ _ _ z)).trans ?_
  refine (congrArg (· + _) Finset.sum_add_distrib.symm).trans ?_
  refine Finset.sum_add_distrib.symm.trans ?_
  refine Finset.sum_congr rfl fun r _ => ?_
  refine (congrArg₂ (· + ·) (congrArg₂ (· + ·) ((rowTotal _ _ _ r).trans (Fin.sum_univ_three _))
    (pay_lower x0 x1 r)) (pay_upper x0 x1 r)).trans ?_
  rw [pay_sq, pay_sq, pay_sq]
  rfl

end Cert.KernelIdeal.BlockSum

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Accum.lean ====
/-
  The accumulator over the grid, on the extended reals.

  The grid has 512 points, two shards of 256. Point `t` reads rows `8192 t .. 8192 t + 8191` of both arrays
  (its block of predictions and its block of targets), so its block sum is `blockTotal t`, the sum of the losses
  of those rows. The accumulator holds zeros except at its corner; the first point of a shard resets it, and every
  point adds its block sum to the corner. So after point `n` the corner holds the sum of the block sums of the
  points of `n`'s shard up to `n` (`partialSum n`) — by induction on the point. The last point of a shard also
  copies the accumulator into the output block.
-/
import proofs.«179763_j73512660239006_2_alg».proof.Proof.BlockSum
import proofs.«179763_j73512660239006_2_alg».proof.Proof.LibSumBlocks
import proofs.«179763_j73512660239006_2_alg».proof.Proof.LibWriteOverlay

noncomputable section

namespace Cert.KernelIdeal.Accum

open Cert.KernelIdeal Cert.KernelIdeal.Gen Cert.KernelIdeal.Step Cert.KernelIdeal.BlockSum Cert.Quantile Cert.SumBlocks
open Idealize.ShloMosaic Idealize.ShloMosaic.TcCoe Idealize.ShloMosaic.ValueIdx Idealize.SL.Sem

/-! ### Accumulator contents with a given corner -/

/-- The accumulator holding `s` at its corner and zero elsewhere. -/
def accOf (s : EReal) : Vec Ideal S8x128 .f32 := fun y => if (y 0).val = 0 ∧ (y 1).val = 0 then s else 0

/-- The zero block is the accumulator with corner zero. -/
theorem zeroBlock_eq : (zeroBlock : Vec Ideal S8x128 .f32) = accOf 0 := by
  funext y
  show (k0_pay2 (F := Ideal)) y = _
  unfold k0_pay2
  rw [shapeCast_self]
  show Ideal.ofBits .f32 0x00000000#32 = _
  rw [Ideal.ofBits_zero_f32]
  unfold accOf
  rw [ite_self]

/-- One step adds the block sum to the corner. -/
theorem step_accOf (x0 : Vec Ideal S8192x5 .f32) (x1 : Vec Ideal S8192x3 .f32) (s : EReal) :
    step x0 x1 (accOf s) = accOf (s + ∑ r : Fin 8192, lossAt x0 x1 r) := by
  funext y
  unfold step
  by_cases hy : (y 0).val = 0 ∧ (y 1).val = 0
  · refine (Cert.WriteOverlay.overlay_origin_apply hz inb_S8x128_S1x1_0_0 (accOf s) _ y (ix2 (0 : Fin 1) (0 : Fin 1))
      (fun a => match a with | ⟨0, _⟩ => hy.1 | ⟨1, _⟩ => hy.2)).trans ?_
    refine (cornerSum_eq x0 x1 _ _).trans ?_
    show accOf s (cornerRect.idx (ix2 (0 : Fin 1) (0 : Fin 1))) + _ = _
    unfold accOf
    rw [if_pos hy, if_pos ⟨rfl, rfl⟩]
  · have hm : y ∉ cornerRect.set := fun hm => hy (by
      have h := Rect.mem_set_unit.mp hm
      have h0 : (y 0).val < 0 + 1 := (h 0).2
      have h1 : (y 1).val < 0 + 1 := (h 1).2
      omega)
    refine (Rect.overlay_of_not_mem _ _ _ hm).trans ?_
    unfold accOf
    rw [if_neg hy, if_neg hy]

/-! ### The blocks of the two arrays -/

variable (m : (ℓ : Loc nD τ sig) → Buf (Elt Ideal) ℓ) (c : Dev nD)

/-- The predictions and the targets as the program finds them. -/
abbrev preds : S4194304x5.Idx → EReal := m ((c.tc : Thread nD τ).loc main_arg0)
abbrev targs : S4194304x3.Idx → EReal := m ((c.tc : Thread nD τ).loc main_arg1)

/-- Row `r` of block `n`. -/
def rowIx (n : Fin 512) (r : Fin 8192) : Fin 4194304 := ⟨n.val * 8192 + r.val, block_lt n r⟩

/-- A grid point as a block number. -/
def pt (t : Fin cfg0.N) : Fin 512 := ⟨t.val, lt_of_lt_of_eq t.isLt N_0⟩

/-- Where the three windows' blocks sit, decided over the grid: the inputs' block number is the point, the output's the
    shard. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 256 ∧ win0_2.index t (1 : Fin 2) = 0 :=
  (by decide +kernel : ∀ t : Fin grid0.N, _)

/-- The two input blocks of a point. -/
abbrev blk0 (t : Fin cfg0.N) : Vec Ideal S8192x5 .f32 := iblk m c 0 t
abbrev blk1 (t : Fin cfg0.N) : Vec Ideal S8192x3 .f32 := iblk m c 1 t

theorem blk0_apply (t : Fin cfg0.N) (r : Fin 8192) (col : Fin 5) :
    blk0 m c t (ix2 r col) = preds m c (ix2 (rowIx (pt t) r) col) := by
  unfold blk0 iblk
  rw [View.read_apply]
  show V m c main_arg0 (((cfg0.win 0).blk t).view.emb (ix2 r col)) = V m c main_arg0 (ix2 (rowIx (pt t) r) col)
  refine congrArg _ (funext fun a => Fin.ext ?_)
  obtain ⟨e0, e1, -⟩ := idx_facts t
  match a with
  | ⟨0, _⟩ => show win0_0.index t (0 : Fin 2) * 8192 + 1 * r.val = t.val * 8192 + r.val; rw [e0]; omega
  | ⟨1, _⟩ => show win0_0.index t (1 : Fin 2) * 5 + 1 * col.val = col.val; rw [e1]; omega

theorem blk1_apply (t : Fin cfg0.N) (r : Fin 8192) (col : Fin 3) :
    blk1 m c t (ix2 r col) = targs m c (ix2 (rowIx (pt t) r) col) := by
  unfold blk1 iblk
  rw [View.read_apply]
  show V m c main_arg1 (((cfg0.win 1).blk t).view.emb (ix2 r col)) = V m c main_arg1 (ix2 (rowIx (pt t) r) col)
  refine congrArg _ (funext fun a => Fin.ext ?_)
  obtain ⟨-, -, e0, e1, -⟩ := idx_facts t
  match a with
  | ⟨0, _⟩ => show win0_1.index t (0 : Fin 2) * 8192 + 1 * r.val = t.val * 8192 + r.val; rw [e0]; omega
  | ⟨1, _⟩ => show win0_1.index t (1 : Fin 2) * 3 + 1 * col.val = col.val; rw [e1]; omega

/-- The sum of the losses of the rows of block `n`. -/
def blockTotal (n : Fin 512) : EReal := ∑ r : Fin 8192, lossAt (preds m c) (targs m c) (rowIx n r)

/-- A point's block sum is its block's total. -/
theorem block_eq (t : Fin cfg0.N) :
    ∑ r : Fin 8192, lossAt (blk0 m c t) (blk1 m c t) r = blockTotal m c (pt t) := by
  refine Finset.sum_congr rfl fun r _ => ?_
  unfold lossAt
  refine congrArg₂ rowLoss (funext fun col => blk0_apply m c t r col) (funext fun col => blk1_apply m c t r col)

/-! ### The running sum -/

/-- Block totals indexed by naturals (zero past the grid). -/
def tot (k : ℕ) : EReal := if h : k < 512 then blockTotal m c ⟨k, h⟩ else 0

theorem tot_pt (t : Fin cfg0.N) : tot m c t.val = blockTotal m c (pt t) := dif_pos _

/-- The sum of the block totals of `n`'s shard up to `n`. -/
def partialSum (n : ℕ) : EReal := ∑ k ∈ Finset.range (n % 256 + 1), tot m c (n - n % 256 + k)

theorem partialSum_first (n : ℕ) (h0 : n % 256 = 0) : partialSum m c n = 0 + tot m c n := by
  unfold partialSum
  rw [h0, Finset.sum_range_one, Nat.sub_zero, Nat.add_zero, zero_add]

theorem partialSum_succ (n : ℕ) (h0 : ¬(n + 1) % 256 = 0) :
    partialSum m c (n + 1) = partialSum m c n + tot m c (n + 1) := by
  unfold partialSum
  have e1 : (n + 1) % 256 = n % 256 + 1 := by omega
  have e2 : n + 1 - (n % 256 + 1) = n - n % 256 := by omega
  have e3 : n - n % 256 + (n % 256 + 1) = n + 1 := by omega
  rw [e1, e2, Finset.sum_range_succ, e3]

/-! ### What each kind of point leaves -/

/-- The first point of a shard: the accumulator restarts at that point's block total. -/
theorem first (t : Fin cfg0.N) (h0 : t.val % 256 = 0) (h1 : ¬t.val % 256 = 255) :
    (outsAt0 m c t.val t.isLt).2 = accOf (0 + blockTotal m c (pt t)) := by
  rw [outsAt0_A m c t h0 h1]
  dsimp only
  refine (scratch_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (blk0 m c t) (blk1 m c t)).trans ?_
  refine (congrArg (step (blk0 m c t) (blk1 m c t)) zeroBlock_eq).trans ?_
  refine (step_accOf (blk0 m c t) (blk1 m c t) 0).trans ?_
  rw [block_eq]

/-- Any other point: one step from what the point before left. -/
theorem later (t : Fin cfg0.N) (h0 : ¬t.val % 256 = 0) :
    (outsAt0 m c t.val t.isLt).2
      = step (blk0 m c t) (blk1 m c t) (outsAt0 m c (t.val - 1) (Nat.lt_of_le_of_lt (Nat.sub_le _ _) t.isLt)).2 := by
  by_cases h1 : t.val % 256 = 255
  · rw [outsAt0_C m c t h0 h1]
    dsimp only
    exact scratch_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (blk0 m c t) (blk1 m c t) _
  · rw [outsAt0_B m c t h0 h1]
    dsimp only
    exact scratch_B (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (blk0 m c t) (blk1 m c t) _

/-- The last point of a shard stores the updated accumulator into the output block. -/
theorem last_out (t : Fin cfg0.N) (h0 : ¬t.val % 256 = 0) (h1 : t.val % 256 = 255) :
    (outsAt0 m c t.val t.isLt).1 = (outsAt0 m c t.val t.isLt).2 := by
  rw [outsAt0_C m c t h0 h1]
  dsimp only
  exact (out_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (blk0 m c t) (blk1 m c t) _).trans
    (scratch_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (blk0 m c t) (blk1 m c t) _).symm

/-- After point `n` the accumulator's corner holds the running sum of `n`'s shard. -/
theorem acc_eq : ∀ (n : ℕ) (hn : n < cfg0.N), (outsAt0 m c n hn).2 = accOf (partialSum m c n)
  | 0, hn => by
    refine (first m c ⟨0, hn⟩ (Nat.zero_mod _) (show ¬(0 : ℕ) % 256 = 255 by decide)).trans (congrArg accOf ?_)
    rw [partialSum_first m c 0 (Nat.zero_mod _)]
    exact congrArg (0 + ·) (tot_pt m c ⟨0, hn⟩).symm
  | n + 1, hn => by
    have hN : n + 1 < 512 := lt_of_lt_of_eq hn N_0
    by_cases h0 : (n + 1) % 256 = 0
    · refine (first m c ⟨n + 1, hn⟩ h0 (by dsimp only; omega)).trans (congrArg accOf ?_)
      rw [partialSum_first m c (n + 1) h0]
      exact congrArg (0 + ·) (tot_pt m c ⟨n + 1, hn⟩).symm
    · refine (later m c ⟨n + 1, hn⟩ h0).trans ?_
      show step _ _ (outsAt0 m c n _).2 = _
      rw [acc_eq n (Nat.lt_of_succ_lt hn)]
      refine (step_accOf _ _ _).trans (congrArg accOf ?_)
      rw [block_eq, partialSum_succ m c n h0]
      exact congrArg (partialSum m c n + ·) (tot_pt m c ⟨n + 1, hn⟩).symm

end Cert.KernelIdeal.Accum

end
-- ==== Proof.Result.lean ====
/-
  What the kernel program returns, on the extended reals: the mean loss.

  The output array of the region is `[16, 128]`: shard `s` writes its accumulator into rows `8 s .. 8 s + 7` once,
  at its last point, so the array ends holding the shard's total at `(8 s, 0)` and zeros elsewhere (`partials`).
  The lines after the region sum every element of that array from zero and divide by the element count. The
  array's sum is the two shard totals; a shard total is the sum of its 256 block totals and a block total the
  sum of its 8192 row losses, so — sums over `Fin (a b)` regrouped block by block, twice — the array's sum is
  the total loss over all `2 · 256 · 8192` rows. No finiteness is needed: only commutativity and associativity
  of addition are used, and `0 + x = x`.
-/
import proofs.«179763_j73512660239006_2_alg».proof.Proof.Accum
import Idealize.ShloMosaic.Lib.StableHlo.Run
import Idealize.ShloMosaic.PureOps.Ideal.Laws

noncomputable section

namespace Cert.KernelIdeal.Result

open Cert.KernelIdeal Cert.KernelIdeal.Gen Cert.KernelIdeal.Accum Cert.Quantile Cert.SumBlocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ### The region's output array -/

/-- The total of shard `s`: its 256 block totals. -/
def shardTotal (s : ℕ) : EReal := ∑ k ∈ Finset.range 256, tot m c (256 * s + k)

/-- At the last point of a shard the running sum is the shard's total. -/
theorem partialSum_last (n : ℕ) (h1 : n % 256 = 255) : partialSum m c n = shardTotal m c (n / 256) := by
  unfold partialSum shardTotal
  have e : n - 255 = 256 * (n / 256) := by omega
  rw [h1, e]

/-- The array of partial sums: the shard totals at `(0, 0)` and `(8, 0)`, zeros elsewhere. -/
def partials : S16x128.Idx → EReal :=
  fun i => if (i 0).val % 8 = 0 ∧ (i 1).val = 0 then shardTotal m c ((i 0).val / 8) else 0

/-- What a shard's last point writes back is its block of `partials`. -/
theorem flushed_eq (t : Fin cfg0.N) (hf : (cfg0.win 2).flush t = true) :
    (dats m 0 c).flushed 2 t = ((cfg0.win 2).blk t).view.read (Elt Ideal) (partials m c) := by
  have h1 : t.val % 256 = 255 := (flush0_2 t).mp hf
  have hN : t.val < 512 := lt_of_lt_of_eq t.isLt N_0
  have h0 : ¬t.val % 256 = 0 := by omega
  show (cfg0.win 2).cut (grid0.coords t) ((dats m 0 c).after 2 t) = _
  rw [after0_2, last_out m c t h0 h1, acc_eq m c t.val t.isLt]
  funext y
  show accOf (partialSum m c t.val) y = partials m c (((cfg0.win 2).blk t).view.emb y)
  obtain ⟨-, -, -, -, e0, e1⟩ := idx_facts t
  have hy0 : (y 0).val < 8 := (y 0).isLt
  have hy1 : (y 1).val < 128 := (y 1).isLt
  have hemb : ((cfg0.win 2).blk t).view.emb y
      = (ix2 (⟨t.val / 256 * 8 + (y 0).val, by omega⟩ : Fin 16) (⟨(y 1).val, hy1⟩ : Fin 128) : S16x128.Idx) := by
    funext a; apply Fin.ext
    match a with
    | ⟨0, _⟩ => show win0_2.index t (0 : Fin 2) * 8 + 1 * (y 0).val = t.val / 256 * 8 + (y 0).val; rw [e0]; omega
    | ⟨1, _⟩ => show win0_2.index t (1 : Fin 2) * 128 + 1 * (y 1).val = (y 1).val; rw [e1]; omega
  rw [hemb]
  show (if (y 0).val = 0 ∧ (y 1).val = 0 then partialSum m c t.val else 0)
    = (if (t.val / 256 * 8 + (y 0).val) % 8 = 0 ∧ (y 1).val = 0 then shardTotal m c ((t.val / 256 * 8 + (y 0).val) / 8) else 0)
  by_cases hy : (y 0).val = 0 ∧ (y 1).val = 0
  · have hq : (t.val / 256 * 8 + (y 0).val) / 8 = t.val / 256 := by omega
    rw [if_pos hy, if_pos (by omega), hq, partialSum_last m c t.val h1]
  · rw [if_neg hy, if_neg (by omega)]

/-- Every row of the array is in the block of its shard's last point. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hlt : 256 * ((i 0).val / 8) + 255 < cfg0.N := by rw [show cfg0.N = 512 from N_0]; omega
  refine ⟨⟨256 * ((i 0).val / 8) + 255, hlt⟩, (flush0_2 _).mpr (by dsimp only; omega), ?_⟩
  obtain ⟨-, -, -, -, e0, e1⟩ := idx_facts ⟨256 * ((i 0).val / 8) + 255, hlt⟩
  show i ∈ ((View.whole main_v0).slice (win0_2.rect ⟨256 * ((i 0).val / 8) + 255, hlt⟩)).set
  rw [View.set_slice_whole, Rect.mem_set_unit]
  intro a
  match a with
  | ⟨0, _⟩ =>
    show win0_2.index ⟨256 * ((i 0).val / 8) + 255, hlt⟩ (0 : Fin 2) * 8 ≤ (i 0).val
      ∧ (i 0).val < win0_2.index ⟨256 * ((i 0).val / 8) + 255, hlt⟩ (0 : Fin 2) * 8 + 8
    rw [e0]; dsimp only; omega
  | ⟨1, _⟩ =>
    show win0_2.index ⟨256 * ((i 0).val / 8) + 255, hlt⟩ (1 : Fin 2) * 128 ≤ (i 1).val
      ∧ (i 1).val < win0_2.index ⟨256 * ((i 0).val / 8) + 255, hlt⟩ (1 : Fin 2) * 128 + 128
    rw [e1]; omega

/-- The region's output array ends holding the partial sums. -/
theorem final : (dats m 0 c).arrAt 2 cfg0.N = partials m c :=
  (dats m 0 c).arrAt_eq_of_cover 2 (partials m c) (flushed_eq m c) (cover)

/-! ### The sum of the partial sums is the total loss -/

/-- Where shard `s`'s total sits. -/
def shardAt : Fin 2 ↪ S16x128.Idx :=
  ⟨fun s => ix2 (⟨8 * s.val, by have := s.isLt; omega⟩ : Fin 16) (0 : Fin 128), fun s s' h => by
    have h0 : 8 * s.val = 8 * s'.val := congrArg (fun j : S16x128.Idx => (j 0).val) h
    exact Fin.ext (by omega)⟩

/-- A shard's total is the sum of its blocks' totals. -/
theorem shardTotal_eq (s : Fin 2) :
    shardTotal m c s.val = ∑ k : Fin 256, blockTotal m c ⟨s.val * 256 + k.val, block_lt s k⟩ := by
  unfold shardTotal
  refine sum_range_eq_sum_fin 256 _ _ fun k => ?_
  have hlt : 256 * s.val + k.val < 512 := by have := s.isLt; have := k.isLt; omega
  unfold tot
  rw [dif_pos hlt]
  exact congrArg (blockTotal m c) (Fin.ext (by show 256 * s.val + k.val = s.val * 256 + k.val; omega))

/-- The array's sum is the total loss. -/
theorem sum_partials : ∑ j : S16x128.Idx, partials m c j = total (preds m c) (targs m c) := by
  have hsupp : ∀ i : S16x128.Idx, (∀ k, shardAt k ≠ i) → partials m c i = 0 := fun i hne => by
    unfold partials
    by_cases hi : (i 0).val % 8 = 0 ∧ (i 1).val = 0
    · exfalso
      have hi0 : (i 0).val < 16 := (i 0).isLt
      refine hne ⟨(i 0).val / 8, by omega⟩ (funext fun a => Fin.ext ?_)
      match a with
      | ⟨0, _⟩ => show 8 * ((i 0).val / 8) = (i 0).val; omega
      | ⟨1, _⟩ => show 0 = (i 1).val; omega
    · rw [if_neg hi]
  rw [sum_eq_sum_embedding shardAt (partials m c) hsupp]
  have hval : ∀ s : Fin 2, partials m c (shardAt s) = shardTotal m c s.val := fun s => by
    unfold partials
    show (if 8 * s.val % 8 = 0 ∧ (0 : ℕ) = 0 then shardTotal m c (8 * s.val / 8) else 0) = _
    rw [if_pos ⟨by omega, rfl⟩, show 8 * s.val / 8 = s.val by omega]
  rw [Finset.sum_congr rfl fun s _ => (hval s).trans (shardTotal_eq m c s)]
  rw [← sum_fin_blocks (N := 512) 2 256 (by norm_num) (blockTotal m c)]
  unfold blockTotal total
  exact (sum_fin_blocks (N := 4194304) 512 8192 (by norm_num) (lossAt (preds m c) (targs m c))).symm

/-! ### The lines after the region, and the run -/

/-- The result buffer after the lines that follow the region: the mean loss. -/
theorem tail_eq :
    Pipeline.afterTail₀ cfgs (dats m) 0 (V0 m) [hostOps1] c main_v2 = fun _ => mean (preds m c) (targs m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
      = partials m c from (Pipeline.withArrays_arr spec0 launch0.win.arr_inj c _ _ 2).trans (final m c)]
  funext i
  show Ideal.div (Host.reduceAdd (F := Ideal) (partials m c) (constant S_ .f32 0x00000000#32) reducesTo_S16x128_S_d0_1 h_S_ i)
    (Ideal.ofBits .f32 0x4BA00000#32) = _
  simp only [Host.reduceAdd, Ideal.hostReduceAdd_def]
  rw [Ideal.hostReduceAdd_total reducesTo_S16x128_S_d0_1 (fun b => b.elim0) _ _ i, sum_partials]
  rfl

/-- The run, read: the result at the mean loss of the arguments, the arguments unchanged. -/
theorem run : θ_run defs (onTc (τ := τ) (main (F := Ideal))) ⟨m, fun _ => 0, ρ⟩ fun r => ∀ c : Dev nD,
      r.2.mem ((c.tc : Thread nD τ).loc main_v2) = (fun _ => mean (preds m c) (targs m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.lean ====
/-
  The certificate: the kernel program and the reference compute the same mean quantile loss.

  Both programs take predictions `[n, 5]` and targets `[n, 3]`, `n = 4194304`. Per row they form five numbers —
  three squared differences, a lower-range and an upper-range term — and return the sum of all `5 n` numbers
  divided by `5 n`. The reference concatenates the five columns and sums the array in one reduction. The kernel
  walks a grid of two shards of 256 blocks of 8192 rows, sums each block on chip, accumulates the block sums of a
  shard into the corner of a small buffer, writes the two shard totals into a `[16, 128]` array of otherwise
  zeros, and the lines after it sum that array and divide. On the extended reals the two results are the same
  number, `Quantile.mean` of the two arrays: the kernel's grouping of the sum is a regrouping of a finite sum in
  a commutative monoid, the literals are the same float words on both sides, and the divisor is the same word.
  Nothing about the inputs' finiteness is used.

  The three frames are the generated frame runs (the reference's is its generated run with the result dropped);
  the ideal pass rewrote nothing, so there is nothing to preserve.
-/
import proofs.«179763_j73512660239006_2_alg».proof.Defs
import proofs.«179763_j73512660239006_2_alg».proof.Proof.Gen.Kernel
import proofs.«179763_j73512660239006_2_alg».proof.Proof.Gen.Kernel.Frame
import proofs.«179763_j73512660239006_2_alg».proof.Proof.Gen.KernelIdeal
import proofs.«179763_j73512660239006_2_alg».proof.Proof.Gen.KernelIdeal.Frame
import proofs.«179763_j73512660239006_2_alg».proof.Proof.Gen.ReferenceIdeal
import proofs.«179763_j73512660239006_2_alg».proof.Proof.Gen.Pre_finite_inputs
import proofs.«179763_j73512660239006_2_alg».proof.Proof.Gen.ReferenceIdeal.Run
import proofs.«179763_j73512660239006_2_alg».proof.Proof.Gen.ReferenceIdeal.Read
import proofs.«179763_j73512660239006_2_alg».proof.Proof.RefSide
import proofs.«179763_j73512660239006_2_alg».proof.Proof.Result
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- Both runs end with the result at the mean loss of the (agreeing) arguments. -/
theorem algebraic : Cert.algebraic_KernelIdeal_ReferenceIdeal := by
  intro m ρ m' ρ' _ hagree
  refine ⟨fun c => fun _ => Cert.Quantile.mean (Cert.KernelIdeal.Accum.preds m c) (Cert.KernelIdeal.Accum.targs m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq]
  funext i
  rw [Cert.ReferenceIdeal.Mean.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
